-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2048x4096 .f32) (main_arg1 : FVec F S4096x4096 .f32) (main_arg2 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1x256 : Shape := ⟨2, ![1, 256]⟩
abbrev S2048x256 : Shape := ⟨2, ![2048, 256]⟩

abbrev nBuf : Space → Nat
  | .hbm => 5
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S2048x4096, .f32⟩
  | .local _ .vmem, ⟨0, _⟩ => ⟨S2048x4096, .f32⟩
  | .local _ .vmem, ⟨1, _⟩ => ⟨S256x4096, .f32⟩
  | .local _ .vmem, ⟨2, _⟩ => ⟨S256x4096, .f32⟩
  | .local _ .vmem, ⟨3, _⟩ => ⟨S1x256, .f32⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S1x4096 : S4096.ShapeCasts S1x4096
  inb_S2048x4096_S2048x4096_0_0 : ∀ a, (![0, 0] : Fin 2 → Nat) a + S2048x4096.size a ≤ S2048x4096.size a
  h_S2048x4096 : 0 < S2048x4096.numel
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .f32 = 32 ∨ (Rect.block (s := S2048x4096) S2048x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x4096.size a
  hwx0_3 : ∀ i : grid0.Coords, EltTy.bits .f32 = 32 ∨ (Rect.block (s := S2048x4096) S2048x256.size (cc0_transform_3 i) (hinb0_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_arg0) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S2048x4096, .f32⟩
  | .hbm, ⟨4, _⟩ => ⟨S1x4096, .f32⟩
  | .hbm, ⟨5, _⟩ => ⟨S2048x4096, .f32⟩
  | .hbm, ⟨6, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.Spec.lean ====
/-
  The function both programs compute, written once over the extended reals: an affine layer
  out[r, n] = (∑ k, x[r, k] · w[n, k]) + b[n] on a [2048, 4096] input, a [4096, 4096] weight whose ROWS are
  contracted with the input's rows, and a bias of length 4096. No float literal occurs, and no law beyond
  re-indexing the one sum is needed to meet it from either side, so nothing here asks the entries to be finite.
-/
import Idealize.ShloMosaic.PureOps.Ideal
import Idealize.ShloMosaic.Lib.ValueIdx

noncomputable section

open scoped BigOperators

namespace Cert.LinearSpec

open Idealize.ShloMosaic Idealize.ShloMosaic.ValueIdx

/-- One entry of the layer from its two coordinates: row `r` of the input against row `n` of the weight, plus the
    bias at `n`. -/
def entry (x : (⟨2, ![2048, 4096]⟩ : Shape).Idx → EReal) (w : (⟨2, ![4096, 4096]⟩ : Shape).Idx → EReal)
    (b : (⟨1, ![4096]⟩ : Shape).Idx → EReal) (r : Fin 2048) (n : Fin 4096) : EReal :=
  (∑ k : Fin 4096, x (ix2 r k) * w (ix2 n k)) + b (ix1 n)

/-- The whole result array, index by index. -/
def G (x : (⟨2, ![2048, 4096]⟩ : Shape).Idx → EReal) (w : (⟨2, ![4096, 4096]⟩ : Shape).Idx → EReal)
    (b : (⟨1, ![4096]⟩ : Shape).Idx → EReal) : (⟨2, ![2048, 4096]⟩ : Shape).Idx → EReal :=
  fun i => entry x w b ⟨(i 0).val, idx2_lt0 i⟩ ⟨(i 1).val, idx2_lt1 i⟩

/-- At an index given by its coordinates the result is that entry. -/
theorem G_ix2 (x : (⟨2, ![2048, 4096]⟩ : Shape).Idx → EReal) (w : (⟨2, ![4096, 4096]⟩ : Shape).Idx → EReal)
    (b : (⟨1, ![4096]⟩ : Shape).Idx → EReal) (r : Fin 2048) (n : Fin 4096) : G x w b (ix2 r n) = entry x w b r n := rfl

end Cert.LinearSpec

end
-- ==== Proof.RefIsSpec.lean ====
/-
  The reference, read one operation at a time: a dot_general contracting axis 1 of the input with axis 1 of the
  weight, the bias broadcast first to one row and then down the 2048 rows, and their sum. At an index (r, n) this is
  (∑ k, x[r, k] · w[n, k]) + b[n]: the specification's entry, once the generated index functions are recognised as
  indices built from coordinates.
-/
import proofs.«118020_g21251498180727_pilotgen1_95_3_alg».proof.Proof.Gen.ReferenceIdeal.Read
import proofs.«118020_g21251498180727_pilotgen1_95_3_alg».proof.Proof.Spec

noncomputable section

open scoped BigOperators

namespace Cert.ReferenceIdeal.RefValue

open Cert.ReferenceIdeal Cert.ReferenceIdeal.Read Idealize.ShloMosaic Idealize.ShloMosaic.ValueIdx Cert.LinearSpec

/-- The reference's last stage is the specification. -/
theorem ref_eq (x0 : (⟨S2048x4096, .f32⟩ : BufTy).Contents (Elt Ideal)) (x1 : (⟨S4096x4096, .f32⟩ : BufTy).Contents (Elt Ideal))
    (x2 : (⟨S4096, .f32⟩ : BufTy).Contents (Elt Ideal)) :
    val_main_v3 (F := Ideal) x0 x1 x2 = G x0 x1 x2 := by
  funext i
  have hl : ∀ k : Fin 4096, lidx_main_v0 i k = ix2 (⟨(i 0).val, idx2_lt0 i⟩ : Fin 2048) k := fun k =>
    funext fun a => by match a with | ⟨0, _⟩ => rfl | ⟨1, _⟩ => rfl
  have hr : ∀ k : Fin 4096, ridx_main_v0 i k = ix2 (⟨(i 1).val, idx2_lt1 i⟩ : Fin 4096) k := fun k =>
    funext fun a => by match a with | ⟨0, _⟩ => rfl | ⟨1, _⟩ => rfl
  have hb : idx_main_v1 (idx_main_v2 i) = ix1 (⟨(i 1).val, idx2_lt1 i⟩ : Fin 4096) :=
    funext fun a => by match a with | ⟨0, _⟩ => rfl
  rw [val_main_v3_apply, val_main_v0_apply, val_main_v2_apply, val_main_v1_apply, hb]
  show (∑ k : Fin 4096, x0 (lidx_main_v0 i k) * x1 (ridx_main_v0 i k)) + _ = entry x0 x1 x2 _ _
  unfold entry
  exact congrArg (· + x2 (ix1 (⟨(i 1).val, idx2_lt1 i⟩ : Fin 4096))) (Finset.sum_congr rfl fun k _ => by rw [hl k, hr k])

end Cert.ReferenceIdeal.RefValue

end
-- ==== Proof.Payload.lean ====
/-
  What the kernel body stores, read at one entry of the [2048, 256] output block: the matrix product of the whole
  input block with the weight block, both contracted along their second axis, accumulated into zero — so just the
  sum ∑ k, x[p, k] · w[q, k] — plus the bias block's one row broadcast down the 2048 rows, b[0, q].
-/
import proofs.«118020_g21251498180727_pilotgen1_95_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The left operand's row is the output's row: axis 0 of the input block is the one free axis. -/
theorem lhs_c0 (i : S2048x256.Idx) (c : dot_S2048x4096_S256x4096_S2048x256_1_1_0_0_n_n.contr.Idx) :
    (dot_S2048x4096_S256x4096_S2048x256_1_1_0_0_n_n.lhsIdx i c 0).val = (i 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl
/-- Its column is the contraction coordinate. -/
theorem lhs_c1 (i : S2048x256.Idx) (c : dot_S2048x4096_S256x4096_S2048x256_1_1_0_0_n_n.contr.Idx) :
    (dot_S2048x4096_S256x4096_S2048x256_1_1_0_0_n_n.lhsIdx i c 1).val = (c ⟨0, by decide⟩).val :=
  dot_S2048x4096_S256x4096_S2048x256_1_1_0_0_n_n.lhsIdx_val_of_single rfl i c
/-- The right operand's row is the output's COLUMN: the weight block's rows are contracted. -/
theorem rhs_c0 (i : S2048x256.Idx) (c : dot_S2048x4096_S256x4096_S2048x256_1_1_0_0_n_n.contr.Idx) :
    (dot_S2048x4096_S256x4096_S2048x256_1_1_0_0_n_n.rhsIdx i c 0).val = (i 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl
/-- Its column is the contraction coordinate. -/
theorem rhs_c1 (i : S2048x256.Idx) (c : dot_S2048x4096_S256x4096_S2048x256_1_1_0_0_n_n.contr.Idx) :
    (dot_S2048x4096_S256x4096_S2048x256_1_1_0_0_n_n.rhsIdx i c 1).val = (c ⟨0, by decide⟩).val :=
  dot_S2048x4096_S256x4096_S2048x256_1_1_0_0_n_n.rhsIdx_val_of_single rfl i c

/-- The product into a zero accumulator at (p, q) is the plain sum over the contracted axis. -/
theorem matmul_at (v0 : FVec Ideal S2048x4096 .f32) (v1 : FVec Ideal S256x4096 .f32) (p : Fin 2048) (q : Fin 256) :
    FloatOps.matmul dot_S2048x4096_S256x4096_S2048x256_1_1_0_0_n_n none v0 v1 (constant S2048x256 .f32 0x00000000#32) (ix2 p q)
      = ∑ k : Fin 4096, v0 (ix2 p k) * v1 (ix2 q k) := by
  refine (Ideal.matmul_constant_zero_apply dot_S2048x4096_S256x4096_S2048x256_1_1_0_0_n_n none v0 v1 (ix2 p q)).trans ?_
  rw [← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p q)
      ((contrEquiv1 dot_S2048x4096_S256x4096_S2048x256_1_1_0_0_n_n 4096 rfl rfl).symm k) = ix2 p k := funext fun a => Fin.ext (by
    match a with
    | ⟨0, _⟩ => exact lhs_c0 _ _
    | ⟨1, _⟩ => exact (lhs_c1 _ _).trans hk)
  have er : dot_S2048x4096_S256x4096_S2048x256_1_1_0_0_n_n.rhsIdx (ix2 p q)
      ((contrEquiv1 dot_S2048x4096_S256x4096_S2048x256_1_1_0_0_n_n 4096 rfl rfl).symm k) = ix2 q k := funext fun a => Fin.ext (by
    match a with
    | ⟨0, _⟩ => exact rhs_c0 _ _
    | ⟨1, _⟩ => exact (rhs_c1 _ _).trans hk)
  rw [el, er]

/-- The stored value at (p, q). -/
theorem pay_apply (v0 : Vec Ideal S2048x4096 .f32) (v1 : Vec Ideal S256x4096 .f32) (v3 : Vec Ideal S1x256 .f32)
    (p : Fin 2048) (q : Fin 256) :
    k0_pay1 (F := Ideal) v0 v1 v3 (ix2 p q) = (∑ k : Fin 4096, v0 (ix2 p k) * v1 (ix2 q k)) + v3 (ix2 (0 : Fin 1) q) := by
  unfold k0_pay1
  refine (addf_apply _ _ (ix2 p q)).trans ?_
  refine congrArg₂ (· + ·) (matmul_at v0 v1 p q) ?_
  refine (broadcastTo_1b_ab_apply _ broadcasts_S1x256_S2048x256 p q).trans ?_
  rw [shapeCast_self]

end Cert.KernelIdeal.Hand

end
-- ==== Proof.Blocks.lean ====
/-
  From blocks to the whole array. The grid has 16 points; point t reads the whole input, rows 256·t … 256·t + 255
  of the weight and columns 256·t … 256·t + 255 of the bias row, and writes columns 256·t … 256·t + 255 of the
  output, all 2048 rows. So what point t writes back is block t of the specification read at the arguments, the 16
  column blocks tile the output, and the output array ends holding the specification.
-/
import proofs.«118020_g21251498180727_pilotgen1_95_3_alg».proof.Proof.Gen.KernelIdeal.Value
import proofs.«118020_g21251498180727_pilotgen1_95_3_alg».proof.Proof.Payload
import proofs.«118020_g21251498180727_pilotgen1_95_3_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.StableHlo Idealize.ShloMosaic.ValueIdx Cert.LinearSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification at the three argument arrays as launched. -/
abbrev result (c : Dev nD) : S2048x4096.Idx → EReal :=
  G (m ((c : Thread nD τ).loc main_arg0)) (m ((c : Thread nD τ).loc main_arg1)) (m ((c : Thread nD τ).loc main_arg2))

/-- The bias row the region finds: the host reshaped the length-4096 bias to one row before the call. -/
theorem V_bias (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-- The four block index maps over the 16 grid points: the input always block (0, 0); the weight row block t; the bias
    row and the output column block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val ∧ t.val < 16 :=
  (by decide +kernel : ∀ t : Fin grid0.N, _)

/-- The input block at any point is the input. -/
theorem iblk0_apply (c : Dev nD) (t : Fin cfg0.N) (p : Fin 2048) (k : Fin 4096) :
    (iblk m c 0 t : Vec Ideal S2048x4096 .f32) (ix2 p k)
      = (m ((c : Thread nD τ).loc main_arg0) : S2048x4096.Idx → EReal) (ix2 p k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = p.val; rw [e0]; omega
  | ⟨1, _⟩ => show win0_0.index t (1 : Fin 2) * 4096 + 1 * k.val = k.val; rw [e1]; omega

/-- Row q of the weight block at point t is row 256·t + q of the weight. -/
theorem iblk1_apply (c : Dev nD) (t : Fin cfg0.N) (q : Fin 256) (k : Fin 4096) (n : Fin 4096) (hn : n.val = t.val * 256 + q.val) :
    (iblk m c 1 t : Vec Ideal S256x4096 .f32) (ix2 q k)
      = (m ((c : Thread nD τ).loc main_arg1) : S4096x4096.Idx → EReal) (ix2 n k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = n.val; rw [e0, hn]; omega
  | ⟨1, _⟩ => show win0_1.index t (1 : Fin 2) * 4096 + 1 * k.val = k.val; rw [e1]; omega

/-- Entry q of the bias block at point t is entry 256·t + q of the bias. -/
theorem iblk2_apply (c : Dev nD) (t : Fin cfg0.N) (q : Fin 256) (n : Fin 4096) (hn : n.val = t.val * 256 + q.val) :
    (iblk m c 2 t : Vec Ideal S1x256 .f32) (ix2 (0 : Fin 1) q)
      = (m ((c : Thread nD τ).loc main_arg2) : S4096.Idx → EReal) (ix1 n) := by
  obtain ⟨-, -, -, -, e0, e1, -⟩ := idx_facts t
  unfold iblk
  rw [View.read_apply]
  show (V m c main_v0 : S1x4096.Idx → EReal) _ = _
  rw [V_bias]
  refine (congrArg _ (?_ : _ = ix2 (0 : Fin 1) n)).trans (shapeCast_a_1a_apply _ shapeCasts_S4096_S1x4096 0 n)
  funext a
  apply Fin.ext
  match a with
  | ⟨0, _⟩ => show win0_2.index t (0 : Fin 2) * 1 + 1 * 0 = 0; rw [e0]
  | ⟨1, _⟩ => show win0_2.index t (1 : Fin 2) * 256 + 1 * q.val = n.val; rw [e1, hn]; omega

/-- One entry of what point t stores is the specification's entry in the same row and in column 256·t + (the entry's
    column inside the block). -/
theorem point_eq (c : Dev nD) (t : Fin cfg0.N) (j : S2048x256.Idx) (i : S2048x4096.Idx)
    (h0 : (i 0).val = (j 0).val) (h1 : (i 1).val = t.val * 256 + (j 1).val) :
    k0_pay1 (F := Ideal) (iblk m c 0 t) (iblk m c 1 t) (iblk m c 2 t) j = result m c i := by
  obtain ⟨p, q, rfl⟩ : ∃ (p : Fin 2048) (q : Fin 256), j = ix2 p q := ⟨j 0, j 1, eq_ix2 j⟩
  obtain ⟨r, n, rfl⟩ : ∃ (r : Fin 2048) (n : Fin 4096), i = ix2 r n := ⟨i 0, i 1, eq_ix2 i⟩
  obtain rfl : r = p := Fin.ext h0
  refine (pay_apply (iblk m c 0 t) (iblk m c 1 t) (iblk m c 2 t) r q).trans ?_
  refine Eq.trans ?_ (G_ix2 _ _ _ r n).symm
  unfold entry
  exact congrArg₂ (· + ·)
    (Finset.sum_congr rfl fun k _ => congrArg₂ (· * ·) (iblk0_apply m c t r k) (iblk1_apply m c t q k n h1))
    (iblk2_apply m c t q n h1)

/-- What point t writes back is block t of the specification. -/
theorem flushed_eq (c : Dev nD) (t : Fin cfg0.N) :
    (dats m 0 c).flushed 3 t = ((cfg0.win 3).blk t).view.read (Elt Ideal) (result m c) := by
  obtain ⟨-, -, -, -, -, -, e0, e1, -⟩ := idx_facts t
  rw [flushed3]
  unfold out0_3
  rw [View.canon_unit_zero hz]
  simp only [View.ld_unit_zero (S := S2048x4096) hz, View.ld_unit_zero (S := S256x4096) hz, View.ld_unit_zero (S := S1x256) hz]
  funext j
  show k0_pay1 (F := Ideal) (iblk m c 0 t) (iblk m c 1 t) (iblk m c 2 t) j = result m c (((cfg0.win 3).blk t).view.emb j)
  refine point_eq m c t j _ ?_ ?_
  · show win0_3.index t (0 : Fin 2) * 2048 + 1 * (j 0).val = (j 0).val; rw [e0]; omega
  · show win0_3.index t (1 : Fin 2) * 256 + 1 * (j 1).val = t.val * 256 + (j 1).val; rw [e1]; omega

/-- An index of the output is in point t's block iff each coordinate is in the block's range on its axis. -/
theorem mem_blk (t : Fin cfg0.N) (i : S2048x4096.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v1).slice (win0_3.rect t)).set ↔ _
  rw [View.set_slice_whole, Rect.mem_set_unit]
  exact Iff.rfl

/-- Every index of the output is in some point's block: column n is written at point n / 256. -/
theorem cover (i : S2048x4096.Idx) : ∃ t : Fin cfg0.N, (cfg0.win 3).flush t = true ∧ i ∈ ((cfg0.win 3).blk t).view.set := by
  have hi0 : (i 0).val < 2048 := idx2_lt0 i
  have hi1 : (i 1).val < 4096 := idx2_lt1 i
  have hN : grid0.N = 16 := N_0
  obtain ⟨t, ht⟩ : ∃ t : Fin cfg0.N, t.val = (i 1).val / 256 := ⟨⟨(i 1).val / 256, by show _ < grid0.N; rw [hN]; omega⟩, rfl⟩
  obtain ⟨-, -, -, -, -, -, e0, e1, -⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e0]; omega
  | ⟨1, _⟩ =>
    show win0_3.index t (1 : Fin 2) * 256 ≤ (i 1).val ∧ (i 1).val < win0_3.index t (1 : Fin 2) * 256 + 256
    rw [e1, ht]; omega

/-- The output array after the run is the specification at the arguments. -/
theorem final (c : Dev nD) : (dats m 0 c).arrAt 3 cfg0.N = result m c :=
  (dats m 0 c).arrAt_eq_of_cover 3 (result m c) (fun t _ => flushed_eq m c t) cover

/-- The kernel's run: it terminates with the output at the specification and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Hand

end
-- ==== Proof.lean ====
/-
  An affine layer out[r, n] = (∑ k, x[r, k] · w[n, k]) + b[n] over f32[2048, 4096] × f32[4096, 4096] × f32[4096].
  The kernel walks 16 column blocks of width 256: at block t it multiplies the whole input with rows
  256·t … 256·t + 255 of the weight (contracting both along their second axis, into a zero accumulator) and adds the
  matching 256 bias entries, broadcast down the rows. The reference is one dot_general contracting the same two axes,
  plus the bias broadcast to the full shape. Over the extended reals both are the same sum at every index: the zero
  accumulator drops out, the bias block's entry q at point t is the bias at 256·t + q, and the 16 blocks tile the
  output. No law that could fail at an infinity is used, so the finiteness of the inputs is never opened.
  The two word-level and idealized kernel frames and the reference's run are the generated ones; the idealization
  rewrote nothing, so the kernel's idealization statement is trivially true.
-/
import proofs.«118020_g21251498180727_pilotgen1_95_3_alg».proof.Defs
import proofs.«118020_g21251498180727_pilotgen1_95_3_alg».proof.Proof.Gen.Kernel
import proofs.«118020_g21251498180727_pilotgen1_95_3_alg».proof.Proof.Gen.Kernel.Skeleton
import proofs.«118020_g21251498180727_pilotgen1_95_3_alg».proof.Proof.Gen.Kernel.Launch
import proofs.«118020_g21251498180727_pilotgen1_95_3_alg».proof.Proof.Gen.Kernel.Points
import proofs.«118020_g21251498180727_pilotgen1_95_3_alg».proof.Proof.Gen.Kernel.Frame
import proofs.«118020_g21251498180727_pilotgen1_95_3_alg».proof.Proof.Gen.KernelIdeal
import proofs.«118020_g21251498180727_pilotgen1_95_3_alg».proof.Proof.Gen.KernelIdeal.Skeleton
import proofs.«118020_g21251498180727_pilotgen1_95_3_alg».proof.Proof.Gen.KernelIdeal.Launch
import proofs.«118020_g21251498180727_pilotgen1_95_3_alg».proof.Proof.Gen.KernelIdeal.Points
import proofs.«118020_g21251498180727_pilotgen1_95_3_alg».proof.Proof.Gen.KernelIdeal.Frame
import proofs.«118020_g21251498180727_pilotgen1_95_3_alg».proof.Proof.Gen.ReferenceIdeal
import proofs.«118020_g21251498180727_pilotgen1_95_3_alg».proof.Proof.Gen.Pre_finite_inputs
import proofs.«118020_g21251498180727_pilotgen1_95_3_alg».proof.Proof.Gen.KernelIdeal.Value
import proofs.«118020_g21251498180727_pilotgen1_95_3_alg».proof.Proof.Gen.ReferenceIdeal.Run
import proofs.«118020_g21251498180727_pilotgen1_95_3_alg».proof.Proof.Gen.ReferenceIdeal.Read
import proofs.«118020_g21251498180727_pilotgen1_95_3_alg».proof.Proof.Spec
import proofs.«118020_g21251498180727_pilotgen1_95_3_alg».proof.Proof.RefIsSpec
import proofs.«118020_g21251498180727_pilotgen1_95_3_alg».proof.Proof.Payload
import proofs.«118020_g21251498180727_pilotgen1_95_3_alg».proof.Proof.Blocks
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the three arguments, end with the output at the same function of
    those arguments: the kernel by its 16 blocks, the reference by reading its four operations at an index. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
